-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S16 .f32) (main_arg7 : FVec F S16x2 .f32) (main_arg8 : FVec F S2 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg7
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S1600000 .f32) (main_arg4 : FVec F S100000 .f32) (main_arg5 : FVec F S64x16 .f32) (main_arg6 : FVec F S16 .f32) (main_arg7 : FVec F S16x2 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000 .f32 := Host.absf main_arg4
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S100000 : Shape := ⟨1, ![100000]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x16 : Shape := ⟨2, ![1, 16]⟩
abbrev S100000x16 : Shape := ⟨2, ![100000, 16]⟩
abbrev S2000x64 : Shape := ⟨2, ![2000, 64]⟩
abbrev S2000x1 : Shape := ⟨2, ![2000, 1]⟩
abbrev S2000x16 : Shape := ⟨2, ![2000, 16]⟩
abbrev S1600000x16 : Shape := ⟨2, ![1600000, 16]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 49
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .f32⟩
  | .hbm, ⟨5, _⟩ => ⟨S64x16, .f32⟩
  | .hbm, ⟨6, _⟩ => ⟨S16, .f32⟩
  | .hbm, ⟨7, _⟩ => ⟨S16x2, .f32⟩
  | .hbm, ⟨8, _⟩ => ⟨S2, .f32⟩
  | .hbm, ⟨9, _⟩ => ⟨S_, .f32⟩
  | .hbm, ⟨10, _⟩ => ⟨S1600000, .f32⟩
  | .hbm, ⟨11, _⟩ => ⟨S1600000, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x1, .f32⟩
  | .hbm, ⟨29, _⟩ => ⟨S1x16, .f32⟩
  | .hbm, ⟨30, _⟩ => ⟨S100000x16, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x16, .f32⟩
  | .hbm, ⟨40, _⟩ => ⟨S1600000x16, .f32⟩
  | .hbm, ⟨41, _⟩ => ⟨S1600000x16, .f32⟩
  | .hbm, ⟨42, _⟩ => ⟨S_, .f32⟩
  | .hbm, ⟨43, _⟩ => ⟨S100000x16, .f32⟩
  | .hbm, ⟨44, _⟩ => ⟨S1600000x1, .i32⟩
  | .hbm, ⟨45, _⟩ => ⟨S100000x16, .f32⟩
  | .hbm, ⟨46, _⟩ => ⟨S100000x1, .f32⟩
  | .hbm, ⟨47, _⟩ => ⟨S1x2, .f32⟩
  | .hbm, ⟨48, _⟩ => ⟨S100000x2, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x1, .f32⟩
  | .local _ .vmem, ⟨15, _⟩ => ⟨S2000x1, .f32⟩
  | .local _ .vmem, ⟨16, _⟩ => ⟨S16x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S16_S1x16 : S16.ShapeCasts S1x16
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  bitsLt_bf16_f32 : FTy.bits .bf16 < FTy.bits .f32
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S2_S1x2 : S2.ShapeCasts S1x2
  shapeCasts_S2000x16_S2000x16 : S2000x16.ShapeCasts S2000x16
  broadcasts_S2000x1_S2000x16 : S2000x1.Broadcasts S2000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x16_S2000x16_1_0_0_1_n_n_wf : DotDims.WF S2000x64 S64x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S2000x16_S16x2_S2000x2_1_0_0_1_n_n_wf : DotDims.WF S2000x16 S16x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S100000x16.size a
  hwx0_5 : ∀ i : grid0.Coords, EltTy.bits .f32 = 32 ∨ (Rect.block (s := S100000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x2.size a ≤ S16x2.size a
  hwx1_3 : ∀ i : grid1.Coords, EltTy.bits .f32 = 32 ∨ (Rect.block (s := S16x2) S16x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x2.size a ≤ S100000x2.size a
  hwx1_5 : ∀ i : grid1.Coords, EltTy.bits .f32 = 32 ∨ (Rect.block (s := S100000x2) S2000x2.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S100000x2 : Shape := ⟨2, ![100000, 2]⟩
abbrev S1x2 : Shape := ⟨2, ![1, 2]⟩

abbrev nBuf : Space → Nat
  | .hbm => 72
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .f32⟩
  | .hbm, ⟨5, _⟩ => ⟨S64x16, .f32⟩
  | .hbm, ⟨6, _⟩ => ⟨S16, .f32⟩
  | .hbm, ⟨7, _⟩ => ⟨S16x2, .f32⟩
  | .hbm, ⟨8, _⟩ => ⟨S2, .f32⟩
  | .hbm, ⟨9, _⟩ => ⟨S_, .f32⟩
  | .hbm, ⟨10, _⟩ => ⟨S1600000, .f32⟩
  | .hbm, ⟨11, _⟩ => ⟨S1600000, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x16, .f32⟩
  | .hbm, ⟨36, _⟩ => ⟨S1x16, .f32⟩
  | .hbm, ⟨37, _⟩ => ⟨S100000x16, .f32⟩
  | .hbm, ⟨38, _⟩ => ⟨S100000x16, .f32⟩
  | .hbm, ⟨39, _⟩ => ⟨S_, .f32⟩
  | .hbm, ⟨40, _⟩ => ⟨S100000x16, .f32⟩
  | .hbm, ⟨41, _⟩ => ⟨S100000x16, .f32⟩
  | .hbm, ⟨42, _⟩ => ⟨S_, .f32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x16, .f32⟩
  | .hbm, ⟨55, _⟩ => ⟨S1600000x16, .f32⟩
  | .hbm, ⟨56, _⟩ => ⟨S1600000x16, .f32⟩
  | .hbm, ⟨57, _⟩ => ⟨S_, .f32⟩
  | .hbm, ⟨58, _⟩ => ⟨S100000x16, .f32⟩
  | .hbm, ⟨59, _⟩ => ⟨S1600000x1, .i32⟩
  | .hbm, ⟨60, _⟩ => ⟨S100000x16, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S100000x2, .f32⟩
  | .hbm, ⟨69, _⟩ => ⟨S1x2, .f32⟩
  | .hbm, ⟨70, _⟩ => ⟨S100000x2, .f32⟩
  | .hbm, ⟨71, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1600000x1_S1600000x16_0_1 : S1600000x1.BroadcastsInDim S1600000x16 (![0, 1] : Fin 2 → Fin S1600000x16.rank)
  bcast_S100000x1_S100000x16_0_1 : S100000x1.BroadcastsInDim S100000x16 (![0, 1] : Fin 2 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x2_S100000x2_1_0_0_1_n_n_wf : DotDims.WF S100000x16 S16x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.KernelRun.lean ====
/-
  The idealized kernel program's run with its result array named.

  The program is two gridded regions among three stretches of host operations.  Every weakly fair execution of it
  terminates, and in the final state every buffer that outlives the regions holds the contents the last boundary of
  the fold through the program gives it (`Gen.W4`): the host stretches applied in order, each region's arrays at what
  its write-backs leave.  From that one fact any property of the final buffers follows (`run_post`); here the result
  array `main_v32` is read at the second region's last write-backs and the nine arguments at their launch contents
  (`run_named`).
-/
import proofs.«150378_j22101901705839_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Any property of final states that follows from "every buffer outliving the regions is at the last boundary's
    contents" holds after every weakly fair execution, which terminates without a fault. -/
theorem run_post (post : PUnit × MemSt nD τ sig (Elt F) → Prop)
    (hpost : ∀ s : MemSt nD τ sig (Elt F),
      (∀ c : Dev nD, ∀ b ∈ Pipeline.ucRefs τ sig, s.mem (((c : Thread nD τ)).1, b) = W4 m ρ c b) → post (⟨⟩, s)) :
    θ_run defs (onTc (τ := τ) (main (F := F))) ⟨m, fun _ => 0, ρ⟩ post :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => hpost s h)

/-- The run, read: the result array ends at what the second region's write-backs leave of it, the arguments as launched. -/
theorem run_named : θ_run defs (onTc (τ := τ) (main (F := F))) ⟨m, fun _ => 0, ρ⟩ (fun r => ∀ c : Dev nD,
      r.2.mem ((c.tc : Thread nD τ).loc main_v32) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_post m ρ _ fun s h c =>
    ⟨(h c _ (mem_uc main_v32 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩

end Cert.KernelIdeal.Hand

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.Layer.lean ====
/-
  One graph-convolution layer on the extended reals, read at an index.

  A node's row is first combined with what its neighbours sent: entry `(p, k)` of the combined matrix is
  `x(p, k) · (s(p) + 1) + a(p, k)`, where `x` holds the node features, `a` the summed messages and `s` the per-node
  self weight (kept as a column `[n, 1]`).  The layer then multiplies by the weights `W` and adds the bias row `b`
  (kept as a row `[1, e]`): entry `(p, q)` is `∑ₖ combined(p, k) · W(k, q) + b(q)`.  The first layer clamps that
  from below by zero.

  Two facts are proved here, for any sizes.  The pointwise-and-matrix-unit expression a kernel body computes on a block
  — shape casts that change nothing, the column `s + 1` stretched across the row, a product into the zero accumulator
  after a change of float format (the identity on the extended reals), the bias row stretched down the rows — is that
  entry (`body_apply`).  And the entry at row `p` of a block only looks at row `p` of the block's operands, so it is the
  entry of the whole arrays at the row the block's row sits at (`denseAt_congr`).  No finiteness is used anywhere: both
  sides of every equation are the same sums and products in the same order.
-/
import Idealize.ShloMosaic.PureOps.Ideal.Laws
import Idealize.ShloMosaic.Lib.ValueIdx
import Idealize.ShloMosaic.Lib.ValueLayout
import Idealize.ShloMosaic.Lib.Pipeline.Value
import proofs.«150378_j22101901705839_2_alg».proof.Proof.LibMatmul
import proofs.«150378_j22101901705839_2_alg».proof.Proof.LibKeepdims

noncomputable section

namespace Cert.Gcn

open Idealize.ShloMosaic Idealize.ShloMosaic.ValueIdx

/-- A matrix of extended reals with `a` rows and `b` columns. -/
abbrev Mat (a b : ℕ) : Type := (⟨2, ![a, b]⟩ : Shape).Idx → EReal

variable {n d e : ℕ}

/-- Entry `(p, k)` of a node's features combined with its summed messages: `x · (s + 1) + a`. -/
def comb (x a : Mat n d) (s : Mat n 1) (p : Fin n) (k : Fin d) : EReal :=
  x (ix2 p k) * (s (ix2 p (0 : Fin 1)) + Ideal.ofBits .f32 0x3F800000#32) + a (ix2 p k)

/-- Entry `(p, q)` of the layer: the combined row `p` against column `q` of the weights, plus the bias. -/
def denseAt (x a : Mat n d) (s : Mat n 1) (W : Mat d e) (b : Mat 1 e) (p : Fin n) (q : Fin e) : EReal :=
  (∑ k : Fin d, comb x a s p k * W (ix2 k q)) + b (ix2 (0 : Fin 1) q)

/-- The layer as a matrix. -/
def dense (x a : Mat n d) (s : Mat n 1) (W : Mat d e) (b : Mat 1 e) : Mat n e :=
  fun j => denseAt x a s W b (j 0) (j 1)

/-- The layer clamped from below by zero, as a matrix. -/
def denseRelu (x a : Mat n d) (s : Mat n 1) (W : Mat d e) (b : Mat 1 e) : Mat n e :=
  fun j => max (denseAt x a s W b (j 0) (j 1)) (Ideal.ofBits .f32 0x00000000#32)

theorem dense_ix2 (x a : Mat n d) (s : Mat n 1) (W : Mat d e) (b : Mat 1 e) (p : Fin n) (q : Fin e) :
    dense x a s W b (ix2 p q) = denseAt x a s W b p q := rfl

theorem denseRelu_ix2 (x a : Mat n d) (s : Mat n 1) (W : Mat d e) (b : Mat 1 e) (p : Fin n) (q : Fin e) :
    denseRelu x a s W b (ix2 p q) = max (denseAt x a s W b p q) (Ideal.ofBits .f32 0x00000000#32) := rfl

/-- An entry of the layer at row `r` of some operands is the entry at row `p` of others as soon as the two rows of
    features, messages and self weight agree and the weights and bias agree on column `q`. -/
theorem denseAt_congr {n' : ℕ} (x a : Mat n d) (s : Mat n 1) (W : Mat d e) (b : Mat 1 e)
    (X A : Mat n' d) (S : Mat n' 1) (W' : Mat d e) (b' : Mat 1 e) (r : Fin n) (p : Fin n') (q : Fin e)
    (hx : ∀ k, x (ix2 r k) = X (ix2 p k)) (ha : ∀ k, a (ix2 r k) = A (ix2 p k))
    (hs : s (ix2 r (0 : Fin 1)) = S (ix2 p (0 : Fin 1)))
    (hW : ∀ k, W (ix2 k q) = W' (ix2 k q)) (hb : b (ix2 (0 : Fin 1) q) = b' (ix2 (0 : Fin 1) q)) :
    denseAt x a s W b r q = denseAt X A S W' b' p q := by
  unfold denseAt comb
  rw [hb, hs]
  congr 1
  exact Finset.sum_congr rfl fun k _ => by rw [hx k, ha k, hW k]

/-- What a kernel body computes from its blocks, at `(p, q)`, is the layer's entry.  (The feature block enters as `u0`, equal
    to the loaded block `v0`: one body multiplies the loaded block as it is, the other a shape cast of it that changes
    nothing.) -/
theorem body_apply (u0 v0 v1 : FVec Ideal ⟨2, ![n, d]⟩ .f32) (hu : u0 = v0) (v3 : FVec Ideal ⟨2, ![n, 1]⟩ .f32)
    (v10 : FVec Ideal ⟨2, ![d, e]⟩ .f32) (v11 : FVec Ideal ⟨2, ![1, e]⟩ .f32)
    (c1 : (⟨2, ![n, d]⟩ : Shape).ShapeCasts ⟨2, ![n, d]⟩) (c3 : (⟨2, ![n, 1]⟩ : Shape).ShapeCasts ⟨2, ![n, 1]⟩)
    (c11 : (⟨2, ![1, e]⟩ : Shape).ShapeCasts ⟨2, ![1, e]⟩)
    (b3 : (⟨2, ![n, 1]⟩ : Shape).Broadcasts ⟨2, ![n, d]⟩) (b11 : (⟨2, ![1, e]⟩ : Shape).Broadcasts ⟨2, ![n, e]⟩)
    (hb : FTy.bf16.bits < FTy.f32.bits) (p : Fin n) (q : Fin e) :
    addf (FloatOps.matmul (DotDims.plain n d e) none
            (truncf .bf16 (addf (mulf u0 (broadcastTo ⟨2, ![n, d]⟩
                (addf (shapeCast ⟨2, ![n, 1]⟩ v3 c3) (broadcast ⟨2, ![n, 1]⟩ (FloatOps.ofBits (F := Ideal) .f32 0x3F800000#32))) b3))
              (shapeCast ⟨2, ![n, d]⟩ v1 c1)) hb)
            (truncf .bf16 v10 hb) (constant ⟨2, ![n, e]⟩ .f32 0x00000000#32))
         (broadcastTo ⟨2, ![n, e]⟩ (shapeCast ⟨2, ![1, e]⟩ v11 c11) b11) (ix2 p q)
      = denseAt v0 v1 v3 v10 v11 p q := by
  subst hu
  rw [addf_apply, matmul_plain_zero_apply, broadcastTo_1b_ab_apply]
  unfold denseAt comb
  congr 1
  · refine Finset.sum_congr rfl fun k _ => ?_
    rw [truncf_apply, truncf_apply, addf_apply, mulf_apply, broadcastTo_a1_ab_apply, addf_apply, shapeCast_self,
      shapeCast_self, broadcast_apply]
    rfl
  · rw [shapeCast_self]

end Cert.Gcn

end
-- ==== Proof.Region0.lean ====
/-
  The first region's result array: the first graph-convolution layer, clamped by zero, of the arrays the region finds.

  The region runs one grid of 50 points; point `t` works on rows `2000·t … 2000·t + 1999` of the node arrays (features,
  summed messages, the self-weight column) and on the whole weight matrix and bias row, and writes rows
  `2000·t … 2000·t + 1999` of its result.  An entry of the layer at a row only looks at that row of the node arrays, so
  the block a point writes back is that block of ONE matrix — the layer of the arrays as the region finds them — and the
  50 blocks tile the result, which therefore ends holding that matrix.
-/
import proofs.«150378_j22101901705839_2_alg».proof.Proof.Gen.KernelIdeal.Frame
import proofs.«150378_j22101901705839_2_alg».proof.Proof.Layer
import Idealize.ShloMosaic.Lib.Pipeline.Value
import Idealize.ShloMosaic.Lib.ValueIdx

set_option maxRecDepth 16384

noncomputable section

namespace Cert.KernelIdeal.Hand0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of a block, clamped from below by zero: the layer's entry of the loaded blocks. -/
theorem pay_apply (v0 v1 : FVec Ideal S2000x64 .f32) (v3 : FVec Ideal S2000x1 .f32) (v10 : FVec Ideal S64x16 .f32)
    (v11 : FVec Ideal S1x16 .f32) (p : Fin 2000) (q : Fin 16) :
    k0_pay1 (F := Ideal) v0 v1 v3 v10 v11 (ix2 p q) = max (Gcn.denseAt v0 v1 v3 v10 v11 p q) (Ideal.ofBits .f32 0x00000000#32) := by
  unfold k0_pay1
  exact congrArg (fun z => max z (Ideal.ofBits .f32 0x00000000#32)) (Gcn.body_apply (n := 2000) (d := 64) (e := 16) v0 v0 v1 rfl v3 v10 v11 _ _ _ _ _ _ p q)

/-- The printed index maps over the grid: the three node windows and the result move one block of rows per point, the
    weights and the bias stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that row `r` of point `t`'s block is. -/
def row (t : Fin cfg0.N) (r : Fin 2000) : Fin 100000 :=
  ⟨2000 * t.val + r.val, by have h1 : t.val < 50 := by have h0 := t.isLt; have hN : cfg0.N = 50 := N_0; omega
                            have h2 := r.isLt; omega⟩

/-- The layer of the arrays as the region finds them: what the result array ends holding. -/
def G (c : Dev nD) : S100000x16.Idx → EReal :=
  Gcn.denseRelu (V c main_arg0 : S100000x64.Idx → EReal) (V c main_v14 : S100000x64.Idx → EReal)
    (V c main_v15 : S100000x1.Idx → EReal) (V c main_arg5 : S64x16.Idx → EReal) (V c main_v16 : S1x16.Idx → EReal)

/-- The features' block at point `t`, read at `(r, k)`. -/
theorem iblk_0_apply (c : Dev nD) (t : Fin cfg0.N) (r : Fin 2000) (k : Fin 64) :
    (iblk0 V c 0 t : S2000x64.Idx → EReal) (ix2 r k) = (V c main_arg0 : S100000x64.Idx → EReal) (ix2 (row t r) k) := by
  obtain ⟨e0, e1, -⟩ := idx_facts t
  unfold iblk0
  rw [View.read_apply]
  show (V c main_arg0 : S100000x64.Idx → EReal) _ = _
  refine congrArg _ (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 64 + 1 * k.val = k.val; rw [e1]; omega

/-- The summed messages' block at point `t`, read at `(r, k)`. -/
theorem iblk_1_apply (c : Dev nD) (t : Fin cfg0.N) (r : Fin 2000) (k : Fin 64) :
    (iblk0 V c 1 t : S2000x64.Idx → EReal) (ix2 r k) = (V c main_v14 : S100000x64.Idx → EReal) (ix2 (row t r) k) := by
  obtain ⟨-, -, e0, e1, -⟩ := idx_facts t
  unfold iblk0
  rw [View.read_apply]
  show (V c main_v14 : S100000x64.Idx → EReal) _ = _
  refine congrArg _ (funext fun a => Fin.ext ?_)
  match a with
  | ⟨0, _⟩ => show win0_1.index t (0 : Fin 2) * 2000 + 1 * r.val = 2000 * t.val + r.val; rw [e0]; omega
  | ⟨1, _⟩ => show win0_1.index t (1 : Fin 2) * 64 + 1 * k.val = k.val; rw [e1]; omega

/-- The self-weight column's block at point `t`, read at row `r`. -/
theorem iblk_2_apply (c : Dev nD) (t : Fin cfg0.N) (r : Fin 2000) :
    (iblk0 V c 2 t : S2000x1.Idx → EReal) (ix2 r (0 : Fin 1)) = (V c main_v15 : S100000x1.Idx → EReal) (ix2 (row t r) (0 : Fin 1)) := by
  obtain ⟨-, -, -, -, e0, e1, -⟩ := idx_facts t
  unfold iblk0
  rw [View.read_apply]
  show (V c main_v15 : S100000x1.Idx → EReal) _ = _
  refine congrArg _ (funext fun a => Fin.ext ?_)
  match a with
  | ⟨0, _⟩ => show win0_2.index t (0 : Fin 2) * 2000 + 1 * r.val = 2000 * t.val + r.val; rw [e0]; omega
  | ⟨1, _⟩ => show win0_2.index t (1 : Fin 2) * 1 + 1 * 0 = 0; rw [e1]

/-- The weights' block at any point is the whole weight matrix. -/
theorem iblk_3_apply (c : Dev nD) (t : Fin cfg0.N) (k : Fin 64) (q : Fin 16) :
    (iblk0 V c 3 t : S64x16.Idx → EReal) (ix2 k q) = (V c main_arg5 : S64x16.Idx → EReal) (ix2 k q) := by
  obtain ⟨-, -, -, -, -, -, e0, e1, -⟩ := idx_facts t
  unfold iblk0
  rw [View.read_apply]
  show (V c main_arg5 : S64x16.Idx → EReal) _ = _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 16 + 1 * q.val = q.val; rw [e1]; omega

/-- The bias row's block at any point is the whole bias row. -/
theorem iblk_4_apply (c : Dev nD) (t : Fin cfg0.N) (q : Fin 16) :
    (iblk0 V c 4 t : S1x16.Idx → EReal) (ix2 (0 : Fin 1) q) = (V c main_v16 : S1x16.Idx → EReal) (ix2 (0 : Fin 1) q) := by
  obtain ⟨-, -, -, -, -, -, -, -, e0, e1, -⟩ := idx_facts t
  unfold iblk0
  rw [View.read_apply]
  show (V c main_v16 : S1x16.Idx → EReal) _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 16 + 1 * q.val = q.val; rw [e1]; omega

/-- Where entry `(r, q)` of point `t`'s result block sits in the result array. -/
theorem emb_5 (t : Fin cfg0.N) (r : Fin 2000) (q : Fin 16) :
    (((cfg0.win 5).blk t).view.emb (ix2 r q) : S100000x16.Idx) = ix2 (row t r) q := by
  obtain ⟨-, -, -, -, -, -, -, -, -, -, e0, e1⟩ := idx_facts t
  refine funext fun a => Fin.ext ?_
  match a with
  | ⟨0, _⟩ => show win0_5.index t (0 : Fin 2) * 2000 + 1 * r.val = 2000 * t.val + r.val; rw [e0]; omega
  | ⟨1, _⟩ => show win0_5.index t (1 : Fin 2) * 16 + 1 * q.val = q.val; rw [e1]; omega

/-- What point `t` writes back is block `t` of the layer of the arrays as the region finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x64) hz, View.ld_unit_zero (S := S2000x1) hz, View.ld_unit_zero (S := S64x16) hz,
    View.ld_unit_zero (S := S1x16) hz]
  funext y
  obtain ⟨r, q, rfl⟩ : ∃ (r : Fin 2000) (q : Fin 16), y = ix2 r q := ⟨y 0, y 1, eq_ix2 y⟩
  rw [View.read_apply, emb_5 t r q]
  refine (pay_apply _ _ _ _ _ r q).trans ?_
  show _ = Gcn.denseRelu _ _ _ _ _ (ix2 (row t r) q)
  rw [Gcn.denseRelu_ix2]
  refine congrArg (fun z => max z (Ideal.ofBits .f32 0x00000000#32)) (Gcn.denseAt_congr _ _ _ _ _ _ _ _ _ _ r (row t r) q
    (fun k => iblk_0_apply V c t r k) (fun k => iblk_1_apply V c t r k) (iblk_2_apply V c t r)
    (fun k => iblk_3_apply V c t k q) (iblk_4_apply V c t q))

/-- An index of the result array is in point `t`'s block iff each coordinate is in the block's range on its axis. -/
theorem mem_blk (t : Fin cfg0.N) (i : S100000x16.Idx) :
    i ∈ ((cfg0.win 5).blk t).view.set ↔ ∀ a : Fin 2, win0_5.index t a * S2000x16.size a ≤ (i a).val ∧ (i a).val < win0_5.index t a * S2000x16.size a + S2000x16.size a := by
  show i ∈ ((View.whole main_v17).slice (win0_5.rect t)).set ↔ _
  rw [View.set_slice_whole, Rect.mem_set_unit]
  exact Iff.rfl

/-- Every index of the result array is in some point's block: row `i` in the block of point `i / 2000`. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 16 ≤ (i 1).val ∧ (i 1).val < win0_5.index t (1 : Fin 2) * 16 + 16; rw [e1]; omega

/-- The result array after the region: the layer of the arrays as the region finds them. -/
theorem final (c : Dev nD) : (dat0 V c).arrAt 5 cfg0.N = G V c :=
  (dat0 V c).arrAt_eq_of_cover 5 (G V c) (fun t _ => flushed_eq V c t) (cover)

end Cert.KernelIdeal.Hand0

end
-- ==== Proof.Region1.lean ====
/-
  The second region's result array: the second graph-convolution layer of the arrays the region finds.

  The region runs one grid of 50 points; point `t` works on rows `2000·t … 2000·t + 1999` of the node arrays (features,
  summed messages, the self-weight column) and on the whole weight matrix and bias row, and writes rows
  `2000·t … 2000·t + 1999` of its result.  An entry of the layer at a row only looks at that row of the node arrays, so
  the block a point writes back is that block of ONE matrix — the layer of the arrays as the region finds them — and the
  50 blocks tile the result, which therefore ends holding that matrix.
-/
import proofs.«150378_j22101901705839_2_alg».proof.Proof.Gen.KernelIdeal.Frame
import proofs.«150378_j22101901705839_2_alg».proof.Proof.Layer
import Idealize.ShloMosaic.Lib.Pipeline.Value
import Idealize.ShloMosaic.Lib.ValueIdx

set_option maxRecDepth 16384

noncomputable section

namespace Cert.KernelIdeal.Hand1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of a block: the layer's entry of the loaded blocks. -/
theorem pay_apply (v0 v1 : FVec Ideal S2000x16 .f32) (v3 : FVec Ideal S2000x1 .f32) (v10 : FVec Ideal S16x2 .f32)
    (v11 : FVec Ideal S1x2 .f32) (p : Fin 2000) (q : Fin 2) :
    k1_pay1 (F := Ideal) v0 v1 v3 v10 v11 (ix2 p q) = Gcn.denseAt v0 v1 v3 v10 v11 p q := by
  unfold k1_pay1
  exact (Gcn.body_apply (n := 2000) (d := 16) (e := 2) (shapeCast S2000x16 v0 shapeCasts_S2000x16_S2000x16) v0 v1
    (shapeCast_self v0 _) v3 v10 v11 _ _ _ _ _ _ p q)

/-- The printed index maps over the grid: the three node windows and the result move one block of rows per point, the
    weights and the bias stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array row that row `r` of point `t`'s block is. -/
def row (t : Fin cfg1.N) (r : Fin 2000) : Fin 100000 :=
  ⟨2000 * t.val + r.val, by have h1 : t.val < 50 := by have h0 := t.isLt; have hN : cfg1.N = 50 := N_1; omega
                            have h2 := r.isLt; omega⟩

/-- The layer of the arrays as the region finds them: what the result array ends holding. -/
def G (c : Dev nD) : S100000x2.Idx → EReal :=
  Gcn.dense (V c main_v17 : S100000x16.Idx → EReal) (V c main_v29 : S100000x16.Idx → EReal)
    (V c main_v30 : S100000x1.Idx → EReal) (V c main_arg7 : S16x2.Idx → EReal) (V c main_v31 : S1x2.Idx → EReal)

/-- The features' block at point `t`, read at `(r, k)`. -/
theorem iblk_0_apply (c : Dev nD) (t : Fin cfg1.N) (r : Fin 2000) (k : Fin 16) :
    (iblk1 V c 0 t : S2000x16.Idx → EReal) (ix2 r k) = (V c main_v17 : S100000x16.Idx → EReal) (ix2 (row t r) k) := by
  obtain ⟨e0, e1, -⟩ := idx_facts t
  unfold iblk1
  rw [View.read_apply]
  show (V c main_v17 : S100000x16.Idx → EReal) _ = _
  refine congrArg _ (funext fun a => Fin.ext ?_)
  match a with
  | ⟨0, _⟩ => show win1_0.index t (0 : Fin 2) * 2000 + 1 * r.val = 2000 * t.val + r.val; rw [e0]; omega
  | ⟨1, _⟩ => show win1_0.index t (1 : Fin 2) * 16 + 1 * k.val = k.val; rw [e1]; omega

/-- The summed messages' block at point `t`, read at `(r, k)`. -/
theorem iblk_1_apply (c : Dev nD) (t : Fin cfg1.N) (r : Fin 2000) (k : Fin 16) :
    (iblk1 V c 1 t : S2000x16.Idx → EReal) (ix2 r k) = (V c main_v29 : S100000x16.Idx → EReal) (ix2 (row t r) k) := by
  obtain ⟨-, -, e0, e1, -⟩ := idx_facts t
  unfold iblk1
  rw [View.read_apply]
  show (V c main_v29 : S100000x16.Idx → EReal) _ = _
  refine congrArg _ (funext fun a => Fin.ext ?_)
  match a with
  | ⟨0, _⟩ => show win1_1.index t (0 : Fin 2) * 2000 + 1 * r.val = 2000 * t.val + r.val; rw [e0]; omega
  | ⟨1, _⟩ => show win1_1.index t (1 : Fin 2) * 16 + 1 * k.val = k.val; rw [e1]; omega

/-- The self-weight column's block at point `t`, read at row `r`. -/
theorem iblk_2_apply (c : Dev nD) (t : Fin cfg1.N) (r : Fin 2000) :
    (iblk1 V c 2 t : S2000x1.Idx → EReal) (ix2 r (0 : Fin 1)) = (V c main_v30 : S100000x1.Idx → EReal) (ix2 (row t r) (0 : Fin 1)) := by
  obtain ⟨-, -, -, -, e0, e1, -⟩ := idx_facts t
  unfold iblk1
  rw [View.read_apply]
  show (V c main_v30 : S100000x1.Idx → EReal) _ = _
  refine congrArg _ (funext fun a => Fin.ext ?_)
  match a with
  | ⟨0, _⟩ => show win1_2.index t (0 : Fin 2) * 2000 + 1 * r.val = 2000 * t.val + r.val; rw [e0]; omega
  | ⟨1, _⟩ => show win1_2.index t (1 : Fin 2) * 1 + 1 * 0 = 0; rw [e1]

/-- The weights' block at any point is the whole weight matrix. -/
theorem iblk_3_apply (c : Dev nD) (t : Fin cfg1.N) (k : Fin 16) (q : Fin 2) :
    (iblk1 V c 3 t : S16x2.Idx → EReal) (ix2 k q) = (V c main_arg7 : S16x2.Idx → EReal) (ix2 k q) := by
  obtain ⟨-, -, -, -, -, -, e0, e1, -⟩ := idx_facts t
  unfold iblk1
  rw [View.read_apply]
  show (V c main_arg7 : S16x2.Idx → EReal) _ = _
  refine congrArg _ (funext fun a => Fin.ext ?_)
  match a with
  | ⟨0, _⟩ => show win1_3.index t (0 : Fin 2) * 16 + 1 * k.val = k.val; rw [e0]; omega
  | ⟨1, _⟩ => show win1_3.index t (1 : Fin 2) * 2 + 1 * q.val = q.val; rw [e1]; omega

/-- The bias row's block at any point is the whole bias row. -/
theorem iblk_4_apply (c : Dev nD) (t : Fin cfg1.N) (q : Fin 2) :
    (iblk1 V c 4 t : S1x2.Idx → EReal) (ix2 (0 : Fin 1) q) = (V c main_v31 : S1x2.Idx → EReal) (ix2 (0 : Fin 1) q) := by
  obtain ⟨-, -, -, -, -, -, -, -, e0, e1, -⟩ := idx_facts t
  unfold iblk1
  rw [View.read_apply]
  show (V c main_v31 : S1x2.Idx → EReal) _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 2 + 1 * q.val = q.val; rw [e1]; omega

/-- Where entry `(r, q)` of point `t`'s result block sits in the result array. -/
theorem emb_5 (t : Fin cfg1.N) (r : Fin 2000) (q : Fin 2) :
    (((cfg1.win 5).blk t).view.emb (ix2 r q) : S100000x2.Idx) = ix2 (row t r) q := by
  obtain ⟨-, -, -, -, -, -, -, -, -, -, e0, e1⟩ := idx_facts t
  refine funext fun a => Fin.ext ?_
  match a with
  | ⟨0, _⟩ => show win1_5.index t (0 : Fin 2) * 2000 + 1 * r.val = 2000 * t.val + r.val; rw [e0]; omega
  | ⟨1, _⟩ => show win1_5.index t (1 : Fin 2) * 2 + 1 * q.val = q.val; rw [e1]; omega

/-- What point `t` writes back is block `t` of the layer of the arrays as the region finds them. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x16) hz, View.ld_unit_zero (S := S2000x1) hz, View.ld_unit_zero (S := S16x2) hz,
    View.ld_unit_zero (S := S1x2) hz]
  funext y
  obtain ⟨r, q, rfl⟩ : ∃ (r : Fin 2000) (q : Fin 2), y = ix2 r q := ⟨y 0, y 1, eq_ix2 y⟩
  rw [View.read_apply, emb_5 t r q]
  refine (pay_apply _ _ _ _ _ r q).trans ?_
  show _ = Gcn.dense _ _ _ _ _ (ix2 (row t r) q)
  rw [Gcn.dense_ix2]
  refine (Gcn.denseAt_congr _ _ _ _ _ _ _ _ _ _ r (row t r) q
    (fun k => iblk_0_apply V c t r k) (fun k => iblk_1_apply V c t r k) (iblk_2_apply V c t r)
    (fun k => iblk_3_apply V c t k q) (iblk_4_apply V c t q))

/-- An index of the result array is in point `t`'s block iff each coordinate is in the block's range on its axis. -/
theorem mem_blk (t : Fin cfg1.N) (i : S100000x2.Idx) :
    i ∈ ((cfg1.win 5).blk t).view.set ↔ ∀ a : Fin 2, win1_5.index t a * S2000x2.size a ≤ (i a).val ∧ (i a).val < win1_5.index t a * S2000x2.size a + S2000x2.size a := by
  show i ∈ ((View.whole main_v32).slice (win1_5.rect t)).set ↔ _
  rw [View.set_slice_whole, Rect.mem_set_unit]
  exact Iff.rfl

/-- Every index of the result array is in some point's block: row `i` in the block of point `i / 2000`. -/
theorem cover (i : S100000x2.Idx) :
    ∃ t : Fin cfg1.N, (cfg1.win 5).flush t = true ∧ i ∈ ((cfg1.win 5).blk t).view.set := by
  have hi0 : (i 0).val < 100000 := (i 0).isLt
  have hi1 : (i 1).val < 2 := (i 1).isLt
  have hN : cfg1.N = 50 := N_1
  let t : Fin cfg1.N := ⟨(i 0).val / 2000, by rw [hN]; omega⟩
  obtain ⟨-, -, -, -, -, -, -, -, -, -, e0, e1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 2 ≤ (i 1).val ∧ (i 1).val < win1_5.index t (1 : Fin 2) * 2 + 2; rw [e1]; omega

/-- The result array after the region: the layer of the arrays as the region finds them. -/
theorem final (c : Dev nD) : (dat1 V c).arrAt 5 cfg1.N = G V c :=
  (dat1 V c).arrAt_eq_of_cover 5 (G V c) (fun t _ => flushed_eq V c t) (cover)

end Cert.KernelIdeal.Hand1

end
-- ==== Proof.HostSide.lean ====
/-
  The host stretches of the idealized kernel program, read: what each array a region works on holds when the region is
  entered, as a term of the program's arguments.

  Before the first region the host gathers the feature rows of the edges' source nodes, scales each by its edge weight
  plus one, and adds the scaled rows into the rows of their destination nodes (`msgs64`); it also recasts the self
  weights as a column and the first bias as a row.  Between the regions it does the same with the first region's
  result in place of the features (`msgs16`), and recasts the self weights and the second bias again.  The gather and
  the scatter-add are never opened: the summed messages enter the layers as one matrix.
-/
import proofs.«150378_j22101901705839_2_alg».proof.Proof.Gen.KernelIdeal.Frame
import Idealize.ShloMosaic.Lib.StableHlo.Run
import Idealize.ShloMosaic.PureOps.Ideal

set_option maxRecDepth 16384

noncomputable section

namespace Cert.KernelIdeal.HandHost

open Cert.KernelIdeal Cert.KernelIdeal.Gen
open Idealize.ShloMosaic Idealize.ShloMosaic.TcCoe Idealize.SL.Sem Idealize.ShloMosaic.StableHlo

/-- A float array and an integer array of a shape, at the extended reals. -/
abbrev FArr (s : Shape) : Type := (⟨s, .f32⟩ : BufTy).Contents (Elt Ideal)
abbrev IArr (s : Shape) : Type := (⟨s, .i32⟩ : BufTy).Contents (Elt Ideal)

/-- The messages summed per destination node, for rows of width 64: row `src(e)` of `x0` scaled by `ew(e) + 1`, added
    into row `dst(e)` of a zero matrix, over all edges `e`. -/
def msgs64 (x0 : FArr S100000x64) (x1 x2 : IArr S1600000) (x3 : FArr S1600000) : FArr S100000x64 :=
  (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 x2) (mulf (broadcastInDim S1600000x64 ![0, 1] bcast_S1600000x1_S1600000x64_0_1 (broadcastInDim S1600000x1 ![0] bcast_S1600000_S1600000x1_0 (addf x3 (broadcastInDim S1600000 ![] bcast_S_S1600000 (constant (F := Ideal) S_ .f32 0x3F800000#32))))) (Host.gather gather_S100000x64_S1600000x1_S1600000x64_1_0_n_n_0_1_164 x0 (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1)))))

/-- The same for rows of width 16, of a matrix `X`. -/
def msgs16 (X : FArr S100000x16) (x1 x2 : IArr S1600000) (x3 : FArr S1600000) : FArr S100000x16 :=
  (Host.scatterAdd scatter_S100000x16_S1600000x1_S1600000x16_1_0_0_1 (broadcastInDim S100000x16 ![] bcast_S_S100000x16 (constant (F := Ideal) S_ .f32 0x00000000#32)) (broadcastInDim S1600000x1 ![0] bcast_S1600000_S1600000x1_0 x2) (mulf (broadcastInDim S1600000x16 ![0, 1] bcast_S1600000x1_S1600000x16_0_1 (broadcastInDim S1600000x1 ![0] bcast_S1600000_S1600000x1_0 (addf x3 (broadcastInDim S1600000 ![] bcast_S_S1600000 (constant (F := Ideal) S_ .f32 0x3F800000#32))))) (Host.gather gather_S100000x16_S1600000x1_S1600000x16_1_0_n_n_0_1_116 X (broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1)))))

/-- The self weights as a column, and the two biases as rows. -/
def selfCol (x4 : FArr S100000) : FArr S100000x1 := shapeCast S100000x1 x4 shapeCasts_S100000_S100000x1
def biasRow16 (x6 : FArr S16) : FArr S1x16 := shapeCast S1x16 x6 shapeCasts_S16_S1x16
def biasRow2 (x8 : FArr S2) : FArr S1x2 := shapeCast S1x2 x8 shapeCasts_S2_S1x2

variable (m : (ℓ : Loc nD τ sig) → Buf (Elt Ideal) ℓ) (ρ : Dev nD → PrngReg)

/-! ## The first region's arrays at its entry -/

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_arg5 (c : Dev nD) : V1 m ρ c main_arg5 = m ((c : Thread nD τ).loc main_arg5) := by
  show StableHlo.after hostOps0 (W0 m ρ c) (Proc.devRef .tc main_arg5) = _
  after_results_simp <;> rfl

theorem V1_v14 (c : Dev nD) : V1 m ρ c main_v14 = msgs64 (m ((c : Thread nD τ).loc main_arg0)) (m ((c : Thread nD τ).loc main_arg1))
    (m ((c : Thread nD τ).loc main_arg2)) (m ((c : Thread nD τ).loc main_arg3)) := by
  show StableHlo.after hostOps0 (W0 m ρ c) (Proc.devRef .tc main_v14) = _
  after_results_simp <;> rfl

theorem V1_v15 (c : Dev nD) : V1 m ρ c main_v15 = selfCol (m ((c : Thread nD τ).loc main_arg4)) := by
  show StableHlo.after hostOps0 (W0 m ρ c) (Proc.devRef .tc main_v15) = _
  after_results_simp <;> rfl

theorem V1_v16 (c : Dev nD) : V1 m ρ c main_v16 = biasRow16 (m ((c : Thread nD τ).loc main_arg6)) := by
  show StableHlo.after hostOps0 (W0 m ρ c) (Proc.devRef .tc main_v16) = _
  after_results_simp <;> rfl

/-! ## What the second stretch reads, at the first region's exit -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

/-- The edge weights plus one, as a column: computed before the first region and read again after it. -/
theorem W2_v2 (c : Dev nD) : W2 m ρ c (Proc.devRef .tc main_v2)
    = broadcastInDim S1600000x1 ![0] bcast_S1600000_S1600000x1_0 (addf (m ((c : Thread nD τ).loc main_arg3))
        (broadcastInDim S1600000 ![] bcast_S_S1600000 (constant (F := Ideal) S_ .f32 0x3F800000#32))) :=
  (W2_of_ne m ρ c main_v2 (by decide)).trans (by
    show StableHlo.after hostOps0 (W0 m ρ c) (Proc.devRef .tc main_v2) = _
    after_results_simp <;> rfl)

/-- The first region's result array at its exit: what its write-backs leave. -/
theorem W2_v17 (c : Dev nD) : W2 m ρ c (Proc.devRef .tc main_v17) = (dat0 (V1 m ρ) c).arrAt 5 cfg0.N :=
  W2_arr m ρ c 5

/-! ## The second region's arrays at its entry -/

theorem V3_v17 (c : Dev nD) : V3 m ρ c main_v17 = (dat0 (V1 m ρ) c).arrAt 5 cfg0.N := by
  show StableHlo.after hostOps1 (W2 m ρ c) (Proc.devRef .tc main_v17) = _
  after_results_simp <;> exact W2_v17 m ρ c

theorem V3_arg7 (c : Dev nD) : V3 m ρ c main_arg7 = m ((c : Thread nD τ).loc main_arg7) := by
  show StableHlo.after hostOps1 (W2 m ρ c) (Proc.devRef .tc main_arg7) = _
  after_results_simp <;> exact W2_arg7 m ρ c

theorem V3_v30 (c : Dev nD) : V3 m ρ c main_v30 = selfCol (m ((c : Thread nD τ).loc main_arg4)) := by
  show StableHlo.after hostOps1 (W2 m ρ c) (Proc.devRef .tc main_v30) = _
  after_results_simp
  rw [W2_arg4 m ρ c]; rfl

theorem V3_v31 (c : Dev nD) : V3 m ρ c main_v31 = biasRow2 (m ((c : Thread nD τ).loc main_arg8)) := by
  show StableHlo.after hostOps1 (W2 m ρ c) (Proc.devRef .tc main_v31) = _
  after_results_simp
  rw [W2_arg8 m ρ c]; rfl

theorem V3_v29 (c : Dev nD) : V3 m ρ c main_v29 = msgs16 ((dat0 (V1 m ρ) c).arrAt 5 cfg0.N) (m ((c : Thread nD τ).loc main_arg1))
    (m ((c : Thread nD τ).loc main_arg2)) (m ((c : Thread nD τ).loc main_arg3)) := by
  show StableHlo.after hostOps1 (W2 m ρ c) (Proc.devRef .tc main_v29) = _
  after_results_simp
  rw [W2_arg1 m ρ c, W2_arg2 m ρ c, W2_v2 m ρ c, W2_v17 m ρ c]; rfl

end Cert.KernelIdeal.HandHost

end
-- ==== Proof.KernelValue.lean ====
/-
  The idealized kernel program's result, as one term of its arguments.

  The first region leaves the first layer of the features and their summed messages (`first`); the second region leaves
  the second layer of that matrix and of the messages summed from it (`second`): each region's result is the layer of
  the arrays the region finds (the two region modules), and those arrays are what the host stretches made of the
  arguments and of the first region's result (the host module).  `run` re-posts the program's run with the result array
  at that term.
-/
import proofs.«150378_j22101901705839_2_alg».proof.Proof.KernelRun
import proofs.«150378_j22101901705839_2_alg».proof.Proof.Region0
import proofs.«150378_j22101901705839_2_alg».proof.Proof.Region1
import proofs.«150378_j22101901705839_2_alg».proof.Proof.HostSide

set_option maxRecDepth 16384

noncomputable section

namespace Cert.KernelIdeal.HandValue

open Cert.KernelIdeal Cert.KernelIdeal.Gen Cert.KernelIdeal.HandHost
open Idealize.ShloMosaic Idealize.ShloMosaic.TcCoe Idealize.SL.Sem

variable (m : (ℓ : Loc nD τ sig) → Buf (Elt Ideal) ℓ) (ρ : Dev nD → PrngReg)

/-- The first layer, clamped by zero, of the features and their summed messages. -/
def hidden (c : Dev nD) : FArr S100000x16 :=
  Gcn.denseRelu (m ((c : Thread nD τ).loc main_arg0)) (msgs64 (m ((c : Thread nD τ).loc main_arg0)) (m ((c : Thread nD τ).loc main_arg1)) (m ((c : Thread nD τ).loc main_arg2)) (m ((c : Thread nD τ).loc main_arg3)))
    (selfCol (m ((c : Thread nD τ).loc main_arg4))) (m ((c : Thread nD τ).loc main_arg5)) (biasRow16 (m ((c : Thread nD τ).loc main_arg6)))

/-- The second layer of the first layer's result and of the messages summed from it: the program's result. -/
def result (c : Dev nD) : FArr S100000x2 :=
  Gcn.dense (hidden m c) (msgs16 (hidden m c) (m ((c : Thread nD τ).loc main_arg1)) (m ((c : Thread nD τ).loc main_arg2)) (m ((c : Thread nD τ).loc main_arg3)))
    (selfCol (m ((c : Thread nD τ).loc main_arg4))) (m ((c : Thread nD τ).loc main_arg7)) (biasRow2 (m ((c : Thread nD τ).loc main_arg8)))

/-- What the first region leaves in its result array. -/
theorem first (c : Dev nD) : (dat0 (V1 m ρ) c).arrAt 5 cfg0.N = hidden m c := by
  rw [Hand0.final (V1 m ρ) c]
  unfold Hand0.G hidden
  rw [V1_arg0 m ρ c, V1_v14 m ρ c, V1_v15 m ρ c, V1_arg5 m ρ c, V1_v16 m ρ c]

/-- What the second region leaves in the program's result array. -/
theorem second (c : Dev nD) : (dat1 (V3 m ρ) c).arrAt 5 cfg1.N = result m c := by
  rw [Hand1.final (V3 m ρ) c]
  unfold Hand1.G result
  rw [V3_v17 m ρ c, V3_v29 m ρ c, V3_v30 m ρ c, V3_arg7 m ρ c, V3_v31 m ρ c, first m ρ c]

/-- The run, read: the result array ends at `result`, the arguments as launched. -/
theorem run : θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (second m ρ c), (h c).2⟩) (Hand.run_named m ρ)

end Cert.KernelIdeal.HandValue

end
-- ==== Proof.RefSide.lean ====
/-
  The reference program's two layers, read at an index.

  The reference computes each graph-convolution layer on whole arrays: the self weights plus one stretched across the
  feature columns, times the features, plus the summed messages; a host matrix product with the weights; the bias
  stretched down the rows; for the first layer a maximum against zero.  Read at `(p, q)` this is the layer's entry
  `∑ₖ (x(p, k) · (s(p) + 1) + a(p, k)) · W(k, q) + b(q)` — the second layer with the first layer's result in place of the
  features and with the messages summed from it.  The summed messages are carried as one matrix and never opened.
-/
import proofs.«150378_j22101901705839_2_alg».proof.Proof.Gen.ReferenceIdeal.Read
import proofs.«150378_j22101901705839_2_alg».proof.Proof.Layer

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx

/-- A float array and an integer array of a shape, at the extended reals. -/
abbrev FArr (s : Shape) : Type := (⟨s, .f32⟩ : BufTy).Contents (Elt Ideal)
abbrev IArr (s : Shape) : Type := (⟨s, .i32⟩ : BufTy).Contents (Elt Ideal)

/-- The self weights as a column, a bias vector as a row. -/
def col (x4 : FArr S100000) : Gcn.Mat 100000 1 := fun j => x4 (ix1 (j 0))
def row16 (x6 : FArr S16) : Gcn.Mat 1 16 := fun j => x6 (ix1 (j 1))
def row2 (x8 : FArr S2) : Gcn.Mat 1 2 := fun j => x8 (ix1 (j 1))

variable (x0 : FArr S100000x64) (x1 x2 : IArr S1600000) (x3 : FArr S1600000) (x4 : FArr S100000)
  (x5 : FArr S64x16) (x6 : FArr S16) (x7 : FArr S16x2) (x8 : FArr S2)

/-! ## The first layer -/

theorem l21 (p : Fin 100000) (q : Fin 16) (k : Fin 64) : lidx_main_v21 (ix2 p q) k = ix2 p k :=
  funext fun a => Fin.ext (by match a with | ⟨0, _⟩ => rfl | ⟨1, _⟩ => rfl)
theorem r21 (p : Fin 100000) (q : Fin 16) (k : Fin 64) : ridx_main_v21 (ix2 p q) k = ix2 k q :=
  funext fun a => Fin.ext (by match a with | ⟨0, _⟩ => rfl | ⟨1, _⟩ => rfl)
theorem i18 (p : Fin 100000) (k : Fin 64) : idx_main_v17 (idx_main_v18 (ix2 p k)) = ix1 p :=
  funext fun a => Fin.ext (by match a with | ⟨0, _⟩ => rfl)
theorem i23 (p : Fin 100000) (q : Fin 16) : idx_main_v22 (idx_main_v23 (ix2 p q)) = ix1 q :=
  funext fun a => Fin.ext (by match a with | ⟨0, _⟩ => rfl)

/-- The self weight plus one, stretched across the 64 feature columns. -/
theorem v18_at (p : Fin 100000) (k : Fin 64) :
    val_main_v18 (F := Ideal) x4 (ix2 p k) = x4 (ix1 p) + Ideal.ofBits .f32 0x3F800000#32 := by
  rw [val_main_v18_apply, val_main_v17_apply, val_main_v16_apply, val_main_v15_apply, val_main_cst_2_apply, i18]
  rfl

/-- The first bias stretched down the rows. -/
theorem v23_at (p : Fin 100000) (q : Fin 16) : val_main_v23 (F := Ideal) x6 (ix2 p q) = x6 (ix1 q) := by
  rw [val_main_v23_apply, val_main_v22_apply, i23]

/-- The features combined with the summed messages. -/
theorem v20_at (p : Fin 100000) (k : Fin 64) :
    val_main_v20 (F := Ideal) x0 x1 x2 x3 x4 (ix2 p k)
      = Gcn.comb x0 (val_main_v14 (F := Ideal) x0 x1 x2 x3) (col x4) p k := by
  rw [val_main_v20_apply, val_main_v19_apply, v18_at]
  rfl

theorem layer1_at (p : Fin 100000) (q : Fin 16) :
    val_main_v25 (F := Ideal) x0 x1 x2 x3 x4 x5 x6 (ix2 p q)
      = max (Gcn.denseAt x0 (val_main_v14 (F := Ideal) x0 x1 x2 x3) (col x4) x5 (row16 x6) p q)
          (Ideal.ofBits .f32 0x00000000#32) := by
  rw [val_main_v25_apply, val_main_v24_apply, val_main_v21_apply, v23_at, val_main_call0_v0_apply,
    val_main_call0_cst_apply]
  unfold Gcn.denseAt
  simp only [l21, r21, v20_at]
  rfl

/-- The reference's first layer is the layer, clamped from below by zero, of the features and their summed messages. -/
theorem layer1 : val_main_v25 (F := Ideal) x0 x1 x2 x3 x4 x5 x6
    = Gcn.denseRelu x0 (val_main_v14 (F := Ideal) x0 x1 x2 x3) (col x4) x5 (row16 x6) := by
  funext j
  obtain ⟨p, q, rfl⟩ : ∃ (p : Fin 100000) (q : Fin 16), j = ix2 p q := ⟨j 0, j 1, eq_ix2 j⟩
  exact layer1_at x0 x1 x2 x3 x4 x5 x6 p q

/-! ## The second layer -/

theorem l47 (p : Fin 100000) (q : Fin 2) (k : Fin 16) : lidx_main_v47 (ix2 p q) k = ix2 p k :=
  funext fun a => Fin.ext (by match a with | ⟨0, _⟩ => rfl | ⟨1, _⟩ => rfl)
theorem r47 (p : Fin 100000) (q : Fin 2) (k : Fin 16) : ridx_main_v47 (ix2 p q) k = ix2 k q :=
  funext fun a => Fin.ext (by match a with | ⟨0, _⟩ => rfl | ⟨1, _⟩ => rfl)
theorem i44 (p : Fin 100000) (k : Fin 16) : idx_main_v43 (idx_main_v44 (ix2 p k)) = ix1 p :=
  funext fun a => Fin.ext (by match a with | ⟨0, _⟩ => rfl)
theorem i49 (p : Fin 100000) (q : Fin 2) : idx_main_v48 (idx_main_v49 (ix2 p q)) = ix1 q :=
  funext fun a => Fin.ext (by match a with | ⟨0, _⟩ => rfl)

/-- The self weight plus one, stretched across the 16 columns of the first layer's result. -/
theorem v44_at (p : Fin 100000) (k : Fin 16) :
    val_main_v44 (F := Ideal) x4 (ix2 p k) = x4 (ix1 p) + Ideal.ofBits .f32 0x3F800000#32 := by
  rw [val_main_v44_apply, val_main_v43_apply, val_main_v42_apply, val_main_v41_apply, val_main_cst_7_apply, i44]
  rfl

/-- The second bias stretched down the rows. -/
theorem v49_at (p : Fin 100000) (q : Fin 2) : val_main_v49 (F := Ideal) x8 (ix2 p q) = x8 (ix1 q) := by
  rw [val_main_v49_apply, val_main_v48_apply, i49]

/-- The first layer's result combined with the messages summed from it. -/
theorem v46_at (p : Fin 100000) (k : Fin 16) :
    val_main_v46 (F := Ideal) x0 x1 x2 x3 x4 x5 x6 (ix2 p k)
      = Gcn.comb (val_main_v25 (F := Ideal) x0 x1 x2 x3 x4 x5 x6) (val_main_v40 (F := Ideal) x0 x1 x2 x3 x4 x5 x6) (col x4) p k := by
  rw [val_main_v46_apply, val_main_v45_apply, v44_at]
  rfl

theorem layer2_at (p : Fin 100000) (q : Fin 2) :
    val_main_v50 (F := Ideal) x0 x1 x2 x3 x4 x5 x6 x7 x8 (ix2 p q)
      = Gcn.denseAt (val_main_v25 (F := Ideal) x0 x1 x2 x3 x4 x5 x6) (val_main_v40 (F := Ideal) x0 x1 x2 x3 x4 x5 x6) (col x4) x7 (row2 x8) p q := by
  rw [val_main_v50_apply, val_main_v47_apply, v49_at]
  unfold Gcn.denseAt
  simp only [l47, r47, v46_at]
  rfl

/-- The reference's result is the second layer of the first layer's result and the messages summed from it. -/
theorem layer2 : val_main_v50 (F := Ideal) x0 x1 x2 x3 x4 x5 x6 x7 x8
    = Gcn.dense (val_main_v25 (F := Ideal) x0 x1 x2 x3 x4 x5 x6) (val_main_v40 (F := Ideal) x0 x1 x2 x3 x4 x5 x6) (col x4) x7 (row2 x8) := by
  funext j
  obtain ⟨p, q, rfl⟩ : ∃ (p : Fin 100000) (q : Fin 2), j = ix2 p q := ⟨j 0, j 1, eq_ix2 j⟩
  exact layer2_at x0 x1 x2 x3 x4 x5 x6 x7 x8 p q

end Cert.ReferenceIdeal.Hand

end
-- ==== Proof.Bridge.lean ====
/-
  The kernel program's result and the reference's are one function of the arguments.

  Both sides are the second graph-convolution layer of the first layer's result, and both first layers are the layer of
  the features; on each side the summed messages are the same host operations of the same arrays (gather the source
  rows, scale by the edge weight plus one, add into the destination rows), so they are one matrix and are never opened.
  What differs is only how the small operands are laid out: the kernel program recasts the self weights `[n]` as a
  column `[n, 1]` and a bias `[e]` as a row `[1, e]`, where the reference stretches them in two steps; read at an index
  these are the same entries.  Every sum and product is taken in the same order on both sides, so no finiteness of the
  inputs is needed.
-/
import proofs.«150378_j22101901705839_2_alg».proof.Proof.KernelValue
import proofs.«150378_j22101901705839_2_alg».proof.Proof.RefSide
import Idealize.ShloMosaic.Lib.ValueLayout

noncomputable section

namespace Cert.Bridge

open Idealize.ShloMosaic Idealize.ShloMosaic.TcCoe Idealize.SL.Sem Idealize.ShloMosaic.ValueIdx
open Cert.KernelIdeal.HandHost (FArr IArr msgs64 msgs16 selfCol biasRow16 biasRow2)
open Cert.ReferenceIdeal.Hand (col row16 row2 layer1 layer2)
open Cert.ReferenceIdeal.Read (val_main_v14 val_main_v25 val_main_v40 val_main_v50)

variable (x0 : FArr Cert.KernelIdeal.S100000x64) (x1 x2 : IArr Cert.KernelIdeal.S1600000) (x3 : FArr Cert.KernelIdeal.S1600000) (x4 : FArr Cert.KernelIdeal.S100000)
  (x5 : FArr Cert.KernelIdeal.S64x16) (x6 : FArr Cert.KernelIdeal.S16) (x7 : FArr Cert.KernelIdeal.S16x2) (x8 : FArr Cert.KernelIdeal.S2)

/-- The self weights recast as a column hold weight `p` at `(p, 0)`. -/
theorem selfCol_eq : selfCol x4 = col x4 := by
  funext j
  obtain ⟨p, u, rfl⟩ : ∃ (p : Fin 100000) (u : Fin 1), j = ix2 p u := ⟨j 0, j 1, eq_ix2 j⟩
  exact shapeCast_a_a1_apply x4 _ p u

/-- A bias recast as a row holds entry `q` at `(0, q)`. -/
theorem biasRow16_eq : biasRow16 x6 = row16 x6 := by
  funext j
  obtain ⟨u, q, rfl⟩ : ∃ (u : Fin 1) (q : Fin 16), j = ix2 u q := ⟨j 0, j 1, eq_ix2 j⟩
  exact shapeCast_a_1a_apply x6 _ u q

theorem biasRow2_eq : biasRow2 x8 = row2 x8 := by
  funext j
  obtain ⟨u, q, rfl⟩ : ∃ (u : Fin 1) (q : Fin 2), j = ix2 u q := ⟨j 0, j 1, eq_ix2 j⟩
  exact shapeCast_a_1a_apply x8 _ u q

/-- The messages summed from the features: the same host operations on both sides. -/
theorem msgs64_eq : msgs64 x0 x1 x2 x3 = val_main_v14 (F := Ideal) x0 x1 x2 x3 := rfl

/-- The messages summed from the first layer's result: the same host operations on both sides. -/
theorem msgs16_eq (X : FArr Cert.KernelIdeal.S100000x16) (h : X = val_main_v25 (F := Ideal) x0 x1 x2 x3 x4 x5 x6) :
    msgs16 X x1 x2 x3 = val_main_v40 (F := Ideal) x0 x1 x2 x3 x4 x5 x6 := by
  subst h; rfl

/-- The two first layers are one matrix. -/
theorem hidden_eq : Gcn.denseRelu x0 (msgs64 x0 x1 x2 x3) (selfCol x4) x5 (biasRow16 x6)
    = val_main_v25 (F := Ideal) x0 x1 x2 x3 x4 x5 x6 := by
  rw [layer1, msgs64_eq, selfCol_eq, biasRow16_eq]

/-- The two results are one matrix. -/
theorem result_eq' :
    Gcn.dense (Gcn.denseRelu x0 (msgs64 x0 x1 x2 x3) (selfCol x4) x5 (biasRow16 x6))
        (msgs16 (Gcn.denseRelu x0 (msgs64 x0 x1 x2 x3) (selfCol x4) x5 (biasRow16 x6)) x1 x2 x3) (selfCol x4) x7 (biasRow2 x8)
      = val_main_v50 (F := Ideal) x0 x1 x2 x3 x4 x5 x6 x7 x8 := by
  rw [layer2, msgs16_eq x0 x1 x2 x3 x4 x5 x6 _ (hidden_eq x0 x1 x2 x3 x4 x5 x6), hidden_eq, selfCol_eq, biasRow2_eq]

/-- The kernel program's result term is the reference's result term of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.HandValue.result m c
      = val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  unfold Cert.KernelIdeal.HandValue.result Cert.KernelIdeal.HandValue.hidden
  exact result_eq' _ _ _ _ _ _ _ _ _

end Cert.Bridge

end
-- ==== Proof.lean ====
/-
  Two graph-convolution layers over a graph of 100000 nodes and 1600000 edges: the kernel program against its reference,
  on the extended reals.

  A layer combines each node's row with the messages its neighbours sent — `x(p, k) · (s(p) + 1) + a(p, k)`, where
  `a` is the sum over the edges into `p` of the source node's row scaled by the edge weight plus one — and applies a
  dense map, `∑ₖ combined(p, k) · W(k, q) + b(q)`; the first layer is clamped from below by zero, the second layer takes
  the first layer's result as its features.  The kernel program leaves the gathering and the summing of messages to the
  host and runs each layer's combine-and-dense stage as a grid of 50 points over blocks of 2000 nodes, with the matrix
  unit fed through a narrower float format; the reference computes everything on whole arrays.  On the extended reals a
  change of float format is the identity and the matrix unit's product into a zero accumulator is the host's product, so
  every entry of the two results is the same sums and products in the same order: the two results are one function of
  the arguments, and no finiteness of the inputs is used.

  The frames of the two kernel programs are the generated ones; the reference's frame is its generated run with the
  result dropped; nothing was rewritten by the idealization, so there is nothing to preserve beyond the programs' own
  text; the equivalence joins the kernel program's run (its result array read off the two regions' write-backs) and the
  reference's run by the equality of the two result terms.
-/
import proofs.«150378_j22101901705839_2_alg».proof.Defs
import proofs.«150378_j22101901705839_2_alg».proof.Proof.Gen.Kernel
import proofs.«150378_j22101901705839_2_alg».proof.Proof.Gen.Kernel.Skeleton
import proofs.«150378_j22101901705839_2_alg».proof.Proof.Gen.Kernel.Launch
import proofs.«150378_j22101901705839_2_alg».proof.Proof.Gen.Kernel.Points
import proofs.«150378_j22101901705839_2_alg».proof.Proof.Gen.Kernel.Frame
import proofs.«150378_j22101901705839_2_alg».proof.Proof.Gen.KernelIdeal
import proofs.«150378_j22101901705839_2_alg».proof.Proof.Gen.KernelIdeal.Skeleton
import proofs.«150378_j22101901705839_2_alg».proof.Proof.Gen.KernelIdeal.Launch
import proofs.«150378_j22101901705839_2_alg».proof.Proof.Gen.KernelIdeal.Points
import proofs.«150378_j22101901705839_2_alg».proof.Proof.Gen.KernelIdeal.Frame
import proofs.«150378_j22101901705839_2_alg».proof.Proof.Gen.ReferenceIdeal
import proofs.«150378_j22101901705839_2_alg».proof.Proof.Gen.Pre_finite_inputs
import proofs.«150378_j22101901705839_2_alg».proof.Proof.Gen.ReferenceIdeal.Read
import proofs.«150378_j22101901705839_2_alg».proof.Proof.KernelValue
import proofs.«150378_j22101901705839_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same matrix: the kernel program's result array at its term of the arguments, the
    reference's at its own, the arguments agreeing, and the two terms one function. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v50_eq, a0, a1, a2, a3, a4, a5, a6, a7, a8]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
